-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : IVec S4096x256 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  main_v3
-- ==== Kernel.lean ====
abbrev S4096x256 : Shape := ⟨2, ![4096, 256]⟩
abbrev S1x1 : Shape := ⟨2, ![1, 1]⟩
abbrev S1024x256 : Shape := ⟨2, ![1024, 256]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x256, .i32⟩
  | .hbm, ⟨2, _⟩ => ⟨S1x1, .f32⟩
  | .hbm, ⟨3, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .i32⟩
  | .local _ .vmem, ⟨3, _⟩ => ⟨S1024x256, .i32⟩
  | .local _ .vmem, ⟨4, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .i32 = 32 ∨ (Rect.block (s := S4096x256) S1024x256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .i32⟩
  | .hbm, ⟨2, _⟩ => ⟨S_, .i32⟩
  | .hbm, ⟨3, _⟩ => ⟨S4096x256, .i32⟩
  | .hbm, ⟨4, _⟩ => ⟨S4096x256, .i1⟩
  | .hbm, ⟨5, _⟩ => ⟨S4096x256, .f32⟩
  | .hbm, ⟨6, _⟩ => ⟨S4096x256, .f32⟩
  | .hbm, ⟨7, _⟩ => ⟨S_, .f32⟩
  | .hbm, ⟨8, _⟩ => ⟨S_, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096, .f32⟩
  | .hbm, ⟨13, _⟩ => ⟨S4096x256, .f32⟩
  | .hbm, ⟨14, _⟩ => ⟨S_, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_call1_v0 : Ref sig .tc := ⟨.hbm, 15, rfl⟩
abbrev main_call1_v1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  reducesTo_S4096x256_S4096_d1 : S4096x256.ReducesTo [1] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.KernelCases.lean ====
/-
  What one grid point leaves in the [1, 1] accumulator, in each of the three situations a point can be in.

  The body adds the point's block contribution onto the accumulator. At the first point the accumulator is first set
  to zero; at the last point the accumulated total is then divided by the number of rows. Writing `part x y acc` for
  "acc plus the block's partial sum" (the body's second stored value), `zero` for the first stored value and
  `mean v` for the third:

      first point  :  part x y zero
      middle point :  part x y acc
      last point   :  mean (part x y acc)

  where `x`, `y` are the point's two input blocks and `acc` what the point before left. Each holds for any float
  values: the stores overwrite the whole one-entry block, and a load after a store reads the stored value back.
-/
import proofs.«126177_j65678639890840_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- A point that is neither first nor last: the block's partial sum is added onto what the point before left. -/
theorem out_B (c : Dev nD) (i : grid0.Coords) (a1 : Memref sig .tc .vmem S1024x256 .f32) (h1 : a1.IsWhole)
    (a2 : Memref sig .tc .vmem S1024x256 .i32) (h2 : a2.IsWhole) (a3 : Memref sig .tc .vmem S1x1 .f32) (h3 : a3.IsWhole)
    (hc0 : ¬cond0_0 i) (hc1 : ¬cond0_1 i) (x0 : Vec F S1024x256 .f32) (x1 : Vec F S1024x256 .i32) (xo : Vec F S1x1 .f32) :
    out0_B_2 c i a1 h1 a2 h2 a3 h3 hc0 hc1 x0 x1 xo = k0_pay2 x0 x1 xo := by
  unfold out0_B_2
  rw [View.read_writes_eq_canon _ _ _ (cover0_B_2 c i a1 h1 a2 h2 a3 h3 hc0 hc1 x0 x1 xo)]
  unfold kernelRun0_B
  dsimp only
  rw [View.canon_unit_zero hz]
  simp only [View.readAt_eq_ld, h1.read_unread, h2.read_unread, h3.read_unread, View.ld_unit_zero (S := S1024x256) hz,
    View.ld_unit_zero (S := S1x1) hz]

/-- The first point: the accumulator is set to zero, read back, and the block's partial sum added onto it. -/
theorem out_A (c : Dev nD) (i : grid0.Coords) (a1 : Memref sig .tc .vmem S1024x256 .f32) (h1 : a1.IsWhole)
    (a2 : Memref sig .tc .vmem S1024x256 .i32) (h2 : a2.IsWhole) (a3 : Memref sig .tc .vmem S1x1 .f32) (h3 : a3.IsWhole)
    (hc0 : cond0_0 i) (hc1 : ¬cond0_1 i) (x0 : Vec F S1024x256 .f32) (x1 : Vec F S1024x256 .i32) :
    out0_A_2 c i a1 h1 a2 h2 a3 h3 hc0 hc1 x0 x1 = k0_pay2 x0 x1 k0_pay1 := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S1024x256) hz]

/-- The last point: the block's partial sum is added, the total read back and divided by the number of rows. -/
theorem out_C (c : Dev nD) (i : grid0.Coords) (a1 : Memref sig .tc .vmem S1024x256 .f32) (h1 : a1.IsWhole)
    (a2 : Memref sig .tc .vmem S1024x256 .i32) (h2 : a2.IsWhole) (a3 : Memref sig .tc .vmem S1x1 .f32) (h3 : a3.IsWhole)
    (hc0 : ¬cond0_0 i) (hc1 : cond0_1 i) (x0 : Vec F S1024x256 .f32) (x1 : Vec F S1024x256 .i32) (xo : Vec F S1x1 .f32) :
    out0_C_2 c i a1 h1 a2 h2 a3 h3 hc0 hc1 x0 x1 xo = k0_pay3 (k0_pay2 x0 x1 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1x1) hz, View.readCov_unit_zero (S := S1x1) _ hz]
  simp only [View.readAt_eq_ld, h1.read_unread, h2.read_unread, h3.read_unread, View.ld_unit_zero (S := S1024x256) hz,
    View.ld_unit_zero (S := S1x1) hz]

end Cert.KernelIdeal.Cases
end
-- ==== Proof.KernelAccum.lean ====
/-
  The kernel's run, read: what its result holds, for any float values.

  The grid has four points, one per block of 1024 rows, and ONE [1, 1] output block whose index never moves: it is
  an accumulator carried from point to point and written back once, after the last point. By induction on the point
  (the three situations of a point are in KernelCases) the accumulator after point `n` is

      acc 0 = part (block 0) zero ,        acc (n + 1) = part (block (n + 1)) (acc n) ,

  and after the last point the buffer holds `mean (acc 3)`. That one block is the whole result array, so the array
  ends holding it; the program's result is the array's one entry, reshaped to rank 0 by the line after the region.
-/
import proofs.«126177_j65678639890840_2_alg».proof.Proof.Gen.KernelIdeal.Frame
import proofs.«126177_j65678639890840_2_alg».proof.Proof.KernelCases
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Cases

variable {F : FTy → Type} [FloatOps F]
variable (m : (ℓ : Loc nD τ sig) → Buf (Elt F) ℓ) (ρ : Dev nD → PrngReg)

/-- The accumulator after point `n`, the final division left out: the zero block with the partial sums of blocks
    `0 … n` added one after the other. -/
def acc (c : Dev nD) : (n : ℕ) → n < cfg0.N → Vec F S1x1 .f32
  | 0, h => k0_pay2 (iblk m c 0 ⟨0, h⟩) (iblk m c 1 ⟨0, h⟩) k0_pay1
  | n + 1, h => k0_pay2 (iblk m c 0 ⟨n + 1, h⟩) (iblk m c 1 ⟨n + 1, h⟩) (acc c n (Nat.lt_of_succ_lt h))

/-- Before the last point the output's staging buffer holds the accumulator: by induction on the point. -/
theorem outsAt_eq (c : Dev nD) : ∀ (n : ℕ) (h : n < cfg0.N), n < 3 → outsAt0 m c n h = acc m c n h
  | 0, h, _ =>
    (outsAt0_A m c ⟨0, h⟩ rfl (by dsimp only; omega)).trans
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        _ _ (iblk m c 0 ⟨0, h⟩) (iblk m c 1 ⟨0, h⟩))
  | n + 1, h, h3 => by
    have hB0 : ¬(⟨n + 1, h⟩ : Fin cfg0.N).val % 4 = 0 := by dsimp only; omega
    have hB1 : ¬(⟨n + 1, h⟩ : Fin cfg0.N).val % 4 = 3 := by dsimp only; omega
    refine (outsAt0_B m c ⟨n + 1, h⟩ hB0 hB1).trans ?_
    refine (out_B c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) _ _ (iblk m c 0 ⟨n + 1, h⟩) (iblk m c 1 ⟨n + 1, h⟩) _).trans ?_
    show k0_pay2 (iblk m c 0 ⟨n + 1, h⟩) (iblk m c 1 ⟨n + 1, h⟩) (outsAt0 m c n _) = k0_pay2 (iblk m c 0 ⟨n + 1, h⟩) (iblk m c 1 ⟨n + 1, h⟩) (acc m c n _)
    rw [outsAt_eq c n _ (by omega)]

/-- The grid has a point 3. -/
theorem three_lt : 3 < cfg0.N := by rw [show cfg0.N = 4 from N_0]; decide

/-- After the last point it holds the accumulator divided by the number of rows. -/
theorem outsAt_last (c : Dev nD) : outsAt0 m c 3 three_lt = k0_pay3 (acc m c 3 three_lt) := by
  have hC0 : ¬(⟨3, three_lt⟩ : Fin cfg0.N).val % 4 = 0 := by decide
  have hC1 : (⟨3, three_lt⟩ : Fin cfg0.N).val % 4 = 3 := by decide
  refine (outsAt0_C m c ⟨3, three_lt⟩ hC0 hC1).trans ?_
  refine (out_C c (grid0.coords ⟨3, three_lt⟩) (ms0_0 ⟨3, three_lt⟩) (hs0_0 ⟨3, three_lt⟩) (ms0_1 ⟨3, three_lt⟩) (hs0_1 ⟨3, three_lt⟩)
    (ms0_2 ⟨3, three_lt⟩) (hs0_2 ⟨3, three_lt⟩) _ _ (iblk m c 0 ⟨3, three_lt⟩) (iblk m c 1 ⟨3, three_lt⟩) _).trans ?_
  show k0_pay3 (k0_pay2 (iblk m c 0 ⟨3, three_lt⟩) (iblk m c 1 ⟨3, three_lt⟩) (outsAt0 m c 2 _)) = k0_pay3 (k0_pay2 (iblk m c 0 ⟨3, three_lt⟩) (iblk m c 1 ⟨3, three_lt⟩) (acc m c 2 _))
  rw [outsAt_eq m c 2 _ (by decide)]

/-- The last point, as a point of the grid. -/
abbrev tLast : Fin cfg0.N := ⟨3, three_lt⟩

/-- What the [1, 1] result array holds after the region: the accumulator after the last block, divided. -/
abbrev result0 (c : Dev nD) : Buf (Elt F) ((c : Thread nD τ).loc main_v0) := k0_pay3 (acc m c 3 three_lt)

/-- The one write-back, at the last point, writes it: block (0, 0) of the [1, 1] array is the array. -/
theorem flushed_eq (c : Dev nD) (t : Fin cfg0.N) (hf : (cfg0.win 2).flush t = true) :
    (dats m 0 c).flushed 2 t = ((cfg0.win 2).blk t).view.read (Elt F) (result0 m c) := by
  have hN : cfg0.N = 4 := N_0
  have h3 : t.val = 3 := by have := (flush0_2 t).mp hf; have := t.isLt; omega
  obtain rfl : t = tLast := Fin.ext h3
  show (cfg0.win 2).cut (grid0.coords tLast) ((dats m 0 c).after 2 tLast) = _
  rw [after0_2]
  show (cfg0.win 2).cut (grid0.coords tLast) (outsAt0 m c 3 three_lt) = _
  rw [outsAt_last]
  have hz' : (fun a => win0_2.index tLast a * main_v0.ty.shape.size a) = fun _ => 0 := funext fun a => by fin_cases a <;> decide
  exact (Memref.read_access_unit_zero (Elt F) main_v0 hz' (fun a => by rw [congrFun hz' a]; simp) (result0 m c)).symm

/-- So the result array ends holding it: the last point's block covers the array. -/
theorem final_o (c : Dev nD) : (dats m 0 c).arrAt 2 cfg0.N = result0 m c :=
  (dats m 0 c).arrAt_eq_of_cover 2 (result0 m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The program's result: the result array's one entry as a rank-0 array (the reshape after the region). -/
abbrev result (c : Dev nD) : Buf (Elt F) ((c : Thread nD τ).loc main_v1) := shapeCast S_ (result0 m c) shapeCasts_S1x1_S_

/-- The line after the region reshapes the region's result array, which holds `result0`. -/
theorem tail_eq (c : Dev nD) : Pipeline.afterTail₀ cfgs (dats m) 0 (V0 m) [hostOps1] c main_v1 = result m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = result0 m c :=
    (Pipeline.withArrays_arr spec0 launch0.win.arr_inj c _ _ 2).trans (final_o m c)
  funext i
  exact congrArg (fun v => shapeCast S_ v shapeCasts_S1x1_S_ i) e

/-- The run, read: the result at `result`, the two argument arrays unchanged. -/
theorem run : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v1 (Pipeline.mem_restRefs_of main_v1 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Accum
end
-- ==== Proof.SumBlocks.lean ====
/-
  A sum over the 4096 rows is the sum, over the four consecutive blocks of 1024 rows, of each block's sum.
  Only commutativity and associativity of addition are used, so the law holds in any additive commutative
  monoid — in particular on the extended reals, infinities included.
-/
import Mathlib.Algebra.BigOperators.Fin
import Mathlib.Logic.Equiv.Fin.Basic

namespace Cert.Lsep

open Finset

/-- Row `1024 * t + r` of the whole array: row `r` of block `t`. -/
def blockRow (t : Fin 4) (r : Fin 1024) : Fin 4096 := ⟨1024 * t.val + r.val, by omega⟩

@[simp] theorem blockRow_val (t : Fin 4) (r : Fin 1024) : (blockRow t r).val = 1024 * t.val + r.val := rfl

/-- The sum over all rows, block by block. -/
theorem sum_rows_eq_sum_blocks {M : Type*} [AddCommMonoid M] (f : Fin 4096 → M) :
    ∑ n : Fin 4096, f n = ∑ t : Fin 4, ∑ r : Fin 1024, f (blockRow t r) := by
  rw [← Fintype.sum_prod_type']
  refine (Fintype.sum_equiv (finProdFinEquiv (m := 4) (n := 1024)) (fun p => f (blockRow p.1 p.2)) f ?_).symm
  rintro ⟨t, r⟩
  refine congrArg f (Fin.ext ?_)
  simp only [blockRow_val, finProdFinEquiv_apply_val]
  omega

/-- The four blocks' sums written out, in the order a left-to-right accumulation adds them. -/
theorem sum_four {M : Type*} [AddCommMonoid M] (g : Fin 4 → M) :
    ∑ t : Fin 4, g t = g 0 + g 1 + g 2 + g 3 := by
  simp [Fin.sum_univ_four]

end Cert.Lsep
-- ==== Proof.LsepSpec.lean ====
/-
  The log-sum-exp pairwise loss as ONE function of the score array `x : [4096, 256]` and the label array
  `y : [4096, 256]`, over the extended reals:

      loss x y = ( Σ_n  log ( 1 + (Σ_k [y n k = 1] · e^(-x n k)) · (Σ_k [y n k ≠ 1] · e^(x n k)) ) ) / 4096 .

  Both programs compute it. One sums the 4096 row terms at once; the other adds up, block after block, the sums
  of four consecutive blocks of 1024 rows, starting from zero. The two agree because addition of extended reals is
  commutative and associative (no finiteness is needed: no product is distributed over a sum and nothing is
  cancelled), and because `0 - x = -x`.
-/
import Idealize.ShloMosaic.PureOps.Ideal.Laws
import Idealize.ShloMosaic.Lib.ValueIdx
import proofs.«126177_j65678639890840_2_alg».proof.Proof.SumBlocks

noncomputable section

open scoped BigOperators

namespace Cert.Lsep

open Idealize.ShloMosaic

/-- The weight of a positive label: `e^(-x)` where the label word is 1, else 0. -/
def posTerm (x : EReal) (y : BitVec 32) : EReal :=
  Scalar.select (IntOp.cmpi .eq y 1#32) (Ideal.exp (-x)) 0

/-- The weight of a negative label: 0 where the label word is 1, else `e^x`. -/
def negTerm (x : EReal) (y : BitVec 32) : EReal :=
  Scalar.select (IntOp.cmpi .eq y 1#32) 0 (Ideal.exp x)

/-- One row's term: `log (1 + (Σ_k posTerm) · (Σ_k negTerm))` over the row's 256 entries. -/
def rowLog (xs : Fin 256 → EReal) (ys : Fin 256 → BitVec 32) : EReal :=
  Ideal.log (Ideal.ofBits .f32 0x3F800000#32 + (∑ k : Fin 256, posTerm (xs k) (ys k)) * (∑ k : Fin 256, negTerm (xs k) (ys k)))

/-- The loss: the mean of the 4096 row terms (the sum divided by the value of the word of 4096.0). -/
def loss (X : Fin 4096 → Fin 256 → EReal) (Y : Fin 4096 → Fin 256 → BitVec 32) : EReal :=
  Ideal.div (∑ n : Fin 4096, rowLog (X n) (Y n)) (Ideal.ofBits .f32 0x45800000#32)

/-- The sum of the row terms of block `t` (rows `1024 t … 1024 t + 1023`). -/
def blockSum (X : Fin 4096 → Fin 256 → EReal) (Y : Fin 4096 → Fin 256 → BitVec 32) (t : Fin 4) : EReal :=
  ∑ r : Fin 1024, rowLog (X (blockRow t r)) (Y (blockRow t r))

/-- Adding the four blocks' sums one after the other onto zero, then dividing, is the loss. -/
theorem accumulated_eq_loss (X : Fin 4096 → Fin 256 → EReal) (Y : Fin 4096 → Fin 256 → BitVec 32) :
    Ideal.div ((((0 + blockSum X Y 0) + blockSum X Y 1) + blockSum X Y 2) + blockSum X Y 3) (Ideal.ofBits .f32 0x45800000#32)
      = loss X Y := by
  unfold loss
  rw [sum_rows_eq_sum_blocks (fun n => rowLog (X n) (Y n)), sum_four, zero_add]
  rfl

/-- With the zero written as a difference from the zero word: `e^(0 - x)` is `e^(-x)`. -/
theorem exp_zero_sub (x : EReal) : Ideal.exp (Ideal.ofBits .f32 0x00000000#32 - x) = Ideal.exp (-x) := by
  rw [Ideal.ofBits_zero_f32, zero_sub]

end Cert.Lsep

end
-- ==== Proof.LibRowSum.lean ====
/-
  A sum along the rows of a matrix, read at a row.

  Summing a [a, b] matrix over its second axis gives a vector of length a whose entry r is Σ_k x[r, k]. Over the
  extended reals this holds of the vector unit's add-reduction whatever order it sums in: addition of extended
  reals is commutative and associative, so the reduction is the finite sum over the dropped axis's coordinates,
  and the source index lying over row r with column k put back is (r, k).
-/
import Idealize.ShloMosaic.PureOps.Ideal.Laws
import Idealize.ShloMosaic.Lib.ValueIdx

noncomputable section

open scoped BigOperators

namespace Idealize.ShloMosaic.RowSum

open Idealize.ShloMosaic Idealize.ShloMosaic.ValueIdx

variable {a b : ℕ}

/-- The source index over row `r` with column `k` inserted on the dropped axis is `(r, k)`. -/
theorem lift_row (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- THE ROW SUM: an f32 add-reduction of a [a, b] matrix over its columns, from the zero word, has at row `r` the
    entry Σ_k x[r, k]. The accumulator's side condition is taken as the equation between the two zero words that a
    printed reduction carries. -/
theorem rowSum_apply (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (lift_row h r k)

end Idealize.ShloMosaic.RowSum

end
-- ==== Proof.LibColSum.lean ====
/-
  A sum down the columns of a matrix, read at a column.

  Summing a [a, b] matrix over its FIRST axis gives a vector of length b whose entry j is Σ_k x[k, j]. Over the
  extended reals this holds of the vector unit's add-reduction whatever order it sums in: addition of extended
  reals is commutative and associative, so the reduction is the finite sum over the dropped axis's coordinates,
  and the source index lying over column j with row k put back is (k, j).
-/
import Idealize.ShloMosaic.PureOps.Ideal.Laws
import Idealize.ShloMosaic.Lib.ValueIdx

noncomputable section

open scoped BigOperators

namespace Idealize.ShloMosaic.ColSum

open Idealize.ShloMosaic Idealize.ShloMosaic.ValueIdx

variable {a b : ℕ}

/-- The source index over column `j` with row `k` inserted on the dropped axis is `(k, j)`. -/
theorem lift_col (h : (⟨2, ![a, b]⟩ : Shape).Reduces [0] ⟨1, ![b]⟩) (j : Fin b) (k : Fin a) :
    h.lift (ix1 j) k = ix2 k j :=
  funext fun c => Fin.ext (by match c with | ⟨0, _⟩ => rfl | ⟨1, _⟩ => rfl)

/-- THE COLUMN SUM: an f32 add-reduction of a [a, b] matrix over its rows, from the zero word, has at column `j`
    the entry Σ_k x[k, j]. The accumulator's side condition is taken as the equation between the two zero words
    that a printed reduction carries. -/
theorem colSum_apply (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  exact Finset.sum_congr rfl fun k _ => congrArg src (lift_col h j k)

end Idealize.ShloMosaic.ColSum

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.KernelPayload.lean ====
/-
  The body's three stored values read at the accumulator's one entry, over the extended reals.

  The second one carries the arithmetic. For input blocks `x, y : [1024, 256]` it is

      acc + Σ_r  log ( 1 + (Σ_k [y r k = 1] · e^(0 - x r k)) · (Σ_k [y r k ≠ 1] · e^(x r k)) ),

  the sums over the 256 columns taken first (kept as a [1024, 1] column), then the product, the one, the logarithm,
  entry by entry down the column, then the sum over the 1024 rows (kept as a [1, 1] block). A reduction over one axis
  is the finite sum over that axis's coordinates, a kept unit axis does not move an entry, `0 - x = -x` and the zero
  word is 0: so this is `acc` plus the block's sum of row terms of the specification.
-/
import proofs.«126177_j65678639890840_2_alg».proof.Proof.Gen.KernelIdeal.Skeleton
import proofs.«126177_j65678639890840_2_alg».proof.Proof.LsepSpec
import proofs.«126177_j65678639890840_2_alg».proof.Proof.LibRowSum
import proofs.«126177_j65678639890840_2_alg».proof.Proof.LibColSum
import proofs.«126177_j65678639890840_2_alg».proof.Proof.LibKeepdimsLayout
import Idealize.ShloMosaic.Lib.Pipeline.Value
import Idealize.ShloMosaic.Lib.ValueIdx
import Idealize.ShloMosaic.PureOps.Ideal.Laws

noncomputable section

open scoped BigOperators

namespace Cert.Lsep.Payload

open Idealize.ShloMosaic Idealize.ShloMosaic.ValueIdx Cert.KernelIdeal Cert.KernelIdeal.Gen Cert.Lsep

/-- The first stored value is the zero block. -/
theorem pay1_apply (j : S1x1.Idx) : k0_pay1 (F := Ideal) j = 0 := by
  show Ideal.ofBits .f32 0x00000000#32 = 0
  exact Ideal.ofBits_zero_f32

/-- The third stored value divides the accumulator by the value of the word of 4096.0. -/
theorem pay3_apply (v : Vec Ideal S1x1 .f32) (j : S1x1.Idx) :
    k0_pay3 (F := Ideal) v j = Ideal.div (v j) (Ideal.ofBits .f32 0x45800000#32) := by
  unfold k0_pay3
  rw [shapeCast_self]
  rfl

/-- The second stored value, at its one entry: the accumulator plus the sum over the block's 1024 rows of each
    row's term — the row sums over the 256 columns kept as a column, multiplied entry by entry, one added, the
    logarithm taken, and the column summed. (`e^(0 - x)` is `e^(-x)`; the zero word is 0.) -/
theorem pay2_apply (x0 : Vec Ideal S1024x256 .f32) (x1 : Vec Ideal S1024x256 .i32) (acc : Vec Ideal S1x1 .f32) :
    k0_pay2 (F := Ideal) x0 x1 acc (ix2 (0 : Fin 1) (0 : Fin 1))
      = acc (ix2 (0 : Fin 1) (0 : Fin 1)) + ∑ r : Fin 1024, rowLog (fun k => x0 (ix2 r k)) (fun k => x1 (ix2 r k)) := by
  unfold k0_pay2
  dsimp only
  rw [shapeCast_self]
  refine congrArg (acc (ix2 (0 : Fin 1) (0 : Fin 1)) + ·) ?_
  rw [Cert.LayoutKeepdims.shapeCast_a_a1_apply, Idealize.ShloMosaic.ColSum.colSum_apply]
  refine Finset.sum_congr rfl fun r _ => ?_
  show Ideal.log (Ideal.ofBits .f32 0x3F800000#32
      + shapeCast S1024x1 _ shapeCasts_S1024_S1024x1 (ix2 r (0 : Fin 1))
        * shapeCast S1024x1 _ shapeCasts_S1024_S1024x1 (ix2 r (0 : Fin 1))) = _
  rw [Cert.LayoutKeepdims.shapeCast_a_a1_apply, Cert.LayoutKeepdims.shapeCast_a_a1_apply,
    Idealize.ShloMosaic.RowSum.rowSum_apply, Idealize.ShloMosaic.RowSum.rowSum_apply]
  unfold rowLog
  refine congrArg (fun z => Ideal.log (Ideal.ofBits .f32 0x3F800000#32 + z)) ?_
  refine congrArg₂ (· * ·) (Finset.sum_congr rfl fun k _ => ?_) (Finset.sum_congr rfl fun k _ => ?_)
  · show Scalar.select (IntOp.cmpi .eq (x1 (ix2 r k)) 1#32)
        (Ideal.exp (Ideal.ofBits .f32 0x00000000#32 - x0 (ix2 r k))) (Ideal.ofBits .f32 0x00000000#32) = posTerm _ _
    rw [exp_zero_sub, Ideal.ofBits_zero_f32]
    rfl
  · show Scalar.select (IntOp.cmpi .eq (x1 (ix2 r k)) 1#32)
        (Ideal.ofBits .f32 0x00000000#32) (Ideal.exp (x0 (ix2 r k))) = negTerm _ _
    rw [Ideal.ofBits_zero_f32]
    rfl

end Cert.Lsep.Payload
end
-- ==== Proof.KernelLoss.lean ====
/-
  The kernel's result over the extended reals is the loss of the specification.

  Point `t`'s input blocks are rows `1024 t … 1024 t + 1023` of the two argument arrays, so one accumulation step at
  point `t` adds the sum of the row terms of those rows; the accumulator after the last point is the four block sums
  added one after the other onto zero, and the stored result is that total divided by the value of the word of
  4096.0. Re-grouping the four block sums into the one sum over all 4096 rows uses only that addition of extended
  reals is commutative and associative.
-/
import proofs.«126177_j65678639890840_2_alg».proof.Proof.KernelAccum
import proofs.«126177_j65678639890840_2_alg».proof.Proof.KernelPayload
import proofs.«126177_j65678639890840_2_alg».proof.Proof.LsepSpec
import Idealize.ShloMosaic.Lib.Pipeline.Value
import Idealize.ShloMosaic.Lib.ValueIdx

noncomputable section

open scoped BigOperators

open Idealize.ShloMosaic Idealize.ShloMosaic.TcCoe Idealize.SL.Sem

namespace Cert.KernelIdeal.LossValue

open Cert.KernelIdeal Cert.KernelIdeal.Gen Cert.KernelIdeal.Accum Cert.Lsep Cert.Lsep.Payload
open Idealize.ShloMosaic.ValueIdx

variable (m : (ℓ : Loc nD τ sig) → Buf (Elt Ideal) ℓ)

/-- The score array by row and column. -/
def X (c : Dev nD) : Fin 4096 → Fin 256 → EReal := fun n k => m ((c : Thread nD τ).loc main_arg0) (ix2 n k)
/-- The label array by row and column. -/
def Y (c : Dev nD) : Fin 4096 → Fin 256 → BitVec 32 := fun n k => m ((c : Thread nD τ).loc main_arg1) (ix2 n k)

/-- Point `t`'s block of the scores is rows `1024 t …` of the array: entry `(r, k)` of the block is entry
    `(1024 t + r, k)` of the array. -/
theorem iblk0_apply (c : Dev nD) (t : Fin cfg0.N) (tt : Fin 4) (htt : tt.val = t.val) (r : Fin 1024) (k : Fin 256) :
    (iblk m c 0 t : Vec Ideal S1024x256 .f32) (ix2 r k) = X m c (blockRow tt r) k := by
  have hi : win0_0.index t 0 = t.val ∧ win0_0.index t 1 = 0 := by
    rcases fin_N0 t with rfl | rfl | rfl | rfl <;> decide
  unfold iblk X
  rw [View.read_apply]
  show m ((c : Thread nD τ).loc main_arg0) _ = m ((c : Thread nD τ).loc main_arg0) _
  congr 1
  funext a
  apply Fin.ext
  match a with
  | ⟨0, _⟩ => show win0_0.index t 0 * 1024 + 1 * r.val = 1024 * tt.val + r.val; rw [hi.1]; omega
  | ⟨1, _⟩ => show win0_0.index t 1 * 256 + 1 * k.val = k.val; rw [hi.2]; omega

/-- The same for the labels. -/
theorem iblk1_apply (c : Dev nD) (t : Fin cfg0.N) (tt : Fin 4) (htt : tt.val = t.val) (r : Fin 1024) (k : Fin 256) :
    (iblk m c 1 t : Vec Ideal S1024x256 .i32) (ix2 r k) = Y m c (blockRow tt r) k := by
  have hi : win0_1.index t 0 = t.val ∧ win0_1.index t 1 = 0 := by
    rcases fin_N0 t with rfl | rfl | rfl | rfl <;> decide
  unfold iblk Y
  rw [View.read_apply]
  show m ((c : Thread nD τ).loc main_arg1) _ = m ((c : Thread nD τ).loc main_arg1) _
  congr 1
  funext a
  apply Fin.ext
  match a with
  | ⟨0, _⟩ => show win0_1.index t 0 * 1024 + 1 * r.val = 1024 * tt.val + r.val; rw [hi.1]; omega
  | ⟨1, _⟩ => show win0_1.index t 1 * 256 + 1 * k.val = k.val; rw [hi.2]; omega

/-- One accumulation step at point `t` adds block `t`'s sum of row terms. -/
theorem step_apply (c : Dev nD) (t : Fin cfg0.N) (tt : Fin 4) (htt : tt.val = t.val) (a : Vec Ideal S1x1 .f32) :
    k0_pay2 (F := Ideal) (iblk m c 0 t) (iblk m c 1 t) a (ix2 (0 : Fin 1) (0 : Fin 1))
      = a (ix2 (0 : Fin 1) (0 : Fin 1)) + blockSum (X m c) (Y m c) tt := by
  refine (pay2_apply (iblk m c 0 t) (iblk m c 1 t) a).trans ?_
  refine congrArg (a (ix2 (0 : Fin 1) (0 : Fin 1)) + ·) (Finset.sum_congr rfl fun r _ => ?_)
  exact congrArg₂ rowLog (funext fun k => iblk0_apply m c t tt htt r k) (funext fun k => iblk1_apply m c t tt htt r k)

theorem acc_zero (c : Dev nD) (h : 0 < cfg0.N) :
    acc m c 0 h (ix2 (0 : Fin 1) (0 : Fin 1)) = 0 + blockSum (X m c) (Y m c) 0 :=
  (step_apply m c ⟨0, h⟩ 0 rfl (k0_pay1 (F := Ideal))).trans (by rw [pay1_apply])

theorem acc_succ (c : Dev nD) (n : ℕ) (h : n + 1 < cfg0.N) (tt : Fin 4) (htt : tt.val = n + 1) :
    acc m c (n + 1) h (ix2 (0 : Fin 1) (0 : Fin 1))
      = acc m c n (Nat.lt_of_succ_lt h) (ix2 (0 : Fin 1) (0 : Fin 1)) + blockSum (X m c) (Y m c) tt :=
  step_apply m c ⟨n + 1, h⟩ tt htt (acc m c n (Nat.lt_of_succ_lt h))

/-- After the last block the accumulator is the four block sums added one after the other onto zero. -/
theorem acc_last (c : Dev nD) :
    acc m c 3 three_lt (ix2 (0 : Fin 1) (0 : Fin 1))
      = (((0 + blockSum (X m c) (Y m c) 0) + blockSum (X m c) (Y m c) 1) + blockSum (X m c) (Y m c) 2) + blockSum (X m c) (Y m c) 3 := by
  refine (acc_succ m c 2 three_lt 3 rfl).trans (congrArg (· + blockSum (X m c) (Y m c) 3) ?_)
  refine (acc_succ m c 1 _ 2 rfl).trans (congrArg (· + blockSum (X m c) (Y m c) 2) ?_)
  refine (acc_succ m c 0 _ 1 rfl).trans (congrArg (· + blockSum (X m c) (Y m c) 1) ?_)
  exact acc_zero m c _

/-- The kernel's result is the loss of its two argument arrays. -/
theorem result_eq_loss (c : Dev nD) : result m c = fun _ => loss (X m c) (Y m c) := by
  funext i
  have e : shapeCast S_ (result0 m c) shapeCasts_S1x1_S_ i = result0 m c (ix2 (0 : Fin 1) (0 : Fin 1)) :=
    shapeCast_apply (s := S1x1) (t := S_) (result0 m c) shapeCasts_S1x1_S_ i (ix2 (0 : Fin 1) (0 : Fin 1)) (by
      show (S1x1.rowMajor (ix2 (0 : Fin 1) (0 : Fin 1))).val = (Shape.rowMajorPi S_.size i).val
      rw [Shape.rowMajor_val_two, Shape.rowMajorPi_zero]
      rfl)
  refine e.trans ?_
  refine (pay3_apply _ _).trans ?_
  rw [acc_last]
  exact accumulated_eq_loss _ _

end Cert.KernelIdeal.LossValue
end
-- ==== Proof.RefValue.lean ====
/-
  The reference program's result, read one operation at a time over the extended reals, is the loss of the
  specification: its two selected arrays are the positive- and negative-label weights entry by entry (a host
  negation is `-x`, the host exponential and logarithm are the same functions as the vector unit's, and the zero
  word is 0), its two row sums the sums over the 256 columns, the logarithm stage the row term, and the last sum
  the sum over the 4096 rows, divided by the value of the word of 4096.0.
-/
import proofs.«126177_j65678639890840_2_alg».proof.Proof.Gen.ReferenceIdeal.Read
import proofs.«126177_j65678639890840_2_alg».proof.Proof.LsepSpec
import Idealize.ShloMosaic.Lib.ValueIdx
import Idealize.ShloMosaic.PureOps.Ideal.Laws

noncomputable section

open scoped BigOperators

namespace Cert.Lsep.RefValue

open Idealize.ShloMosaic Idealize.ShloMosaic.ValueIdx Cert.ReferenceIdeal Cert.ReferenceIdeal.Read Cert.Lsep

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The entries the first row sum adds up at row `n` are `(n, k)`. -/
theorem idx_v5 (n : Fin 4096) (k : Fin 256) : idx_main_v5 (ix1 n) k = ix2 n k :=
  funext fun a => Fin.ext (by match a with | ⟨0, _⟩ => rfl | ⟨1, _⟩ => rfl)
/-- The same for the second row sum. -/
theorem idx_v8 (n : Fin 4096) (k : Fin 256) : idx_main_v8 (ix1 n) k = ix2 n k :=
  funext fun a => Fin.ext (by match a with | ⟨0, _⟩ => rfl | ⟨1, _⟩ => rfl)

/-- The first selected array is the positive-label weight, entry by entry. -/
theorem v4_apply (x0 : (⟨S4096x256, .f32⟩ : BufTy).Contents (Elt Ideal)) (x1 : (⟨S4096x256, .i32⟩ : BufTy).Contents (Elt Ideal))
    (n : Fin 4096) (k : Fin 256) :
    val_main_v4 (F := Ideal) x0 x1 (ix2 n k) = posTerm (x0 (ix2 n k)) (x1 (ix2 n k)) := by
  rw [val_main_v4_apply, val_main_v1_apply, val_main_v0_apply, val_main_c_apply, val_main_v3_apply, val_main_v2_apply,
    val_main_call0_v1_apply, val_main_call0_v0_apply, val_main_cst_apply]
  simp only [Ideal.hostUnary_exp_def, Ideal.hostNegf_def, Ideal.negf_def, Ideal.ofBits_def, Ideal.ofBits_zero_f32]
  rfl

/-- The second selected array is the negative-label weight, entry by entry. -/
theorem v7_apply (x0 : (⟨S4096x256, .f32⟩ : BufTy).Contents (Elt Ideal)) (x1 : (⟨S4096x256, .i32⟩ : BufTy).Contents (Elt Ideal))
    (n : Fin 4096) (k : Fin 256) :
    val_main_v7 (F := Ideal) x0 x1 (ix2 n k) = negTerm (x0 (ix2 n k)) (x1 (ix2 n k)) := by
  rw [val_main_v7_apply, val_main_v1_apply, val_main_v0_apply, val_main_c_apply, val_main_v6_apply,
    val_main_call1_v1_apply, val_main_call1_v0_apply, val_main_cst_1_apply]
  simp only [Ideal.hostUnary_exp_def, Ideal.ofBits_def, Ideal.ofBits_zero_f32]
  rfl

/-- The logarithm stage at row `n` is the row term. -/
theorem v12_apply (x0 : (⟨S4096x256, .f32⟩ : BufTy).Contents (Elt Ideal)) (x1 : (⟨S4096x256, .i32⟩ : BufTy).Contents (Elt Ideal))
    (n : Fin 4096) :
    val_main_v12 (F := Ideal) x0 x1 (ix1 n) = rowLog (fun k => x0 (ix2 n k)) (fun k => x1 (ix2 n k)) := by
  rw [val_main_v12_apply, val_main_v11_apply, val_main_v10_apply, val_main_cst_3_apply, val_main_v9_apply,
    val_main_v5_apply, val_main_v8_apply, val_main_cst_0_apply, val_main_cst_2_apply]
  simp only [idx_v5, idx_v8, v4_apply, v7_apply, Ideal.hostUnary_log_def, Ideal.addf_def, Ideal.mulf_def, Ideal.ofBits_def,
    Ideal.ofBits_zero_f32, zero_add]
  rfl

/-- The reference's result is the loss of its two argument arrays. -/
theorem result_eq_loss (x0 : (⟨S4096x256, .f32⟩ : BufTy).Contents (Elt Ideal)) (x1 : (⟨S4096x256, .i32⟩ : BufTy).Contents (Elt Ideal)) :
    val_main_v14 (F := Ideal) x0 x1 = fun _ => loss (fun n k => x0 (ix2 n k)) (fun n k => x1 (ix2 n k)) := by
  funext i
  rw [val_main_v14_apply, val_main_v13_apply, val_main_cst_4_apply, val_main_cst_5_apply, sum_idx1]
  simp only [v12_apply, Ideal.hostDivf_def, Ideal.ofBits_def, Ideal.ofBits_zero_f32, zero_add]
  rfl

end Cert.Lsep.RefValue
end
-- ==== Proof.lean ====
/-
  The log-sum-exp pairwise loss of a score array `x : f32[4096, 256]` and a label array `y : i32[4096, 256]`,

      ( Σ_n  log ( 1 + (Σ_k [y n k = 1] · e^(-x n k)) · (Σ_k [y n k ≠ 1] · e^(x n k)) ) ) / 4096 ,

  computed two ways. The kernel walks four blocks of 1024 rows, adds each block's sum of row terms onto a [1, 1]
  accumulator that starts at zero, divides by 4096 after the last block, and returns the accumulator's entry. The
  reference forms the 4096 row terms at once, sums them and divides.

  Over the extended reals both are the one function `Cert.Lsep.loss` of the two arrays:
    · a reduction over one axis is the finite sum over that axis's coordinates, on the vector unit and on the host;
    · the host's exponential, logarithm, negation and quotient are the vector unit's functions; `0 - x = -x`;
    · adding four block sums one after the other onto zero is the sum over all rows, because addition of extended
      reals is commutative and associative.
  No product is distributed over a sum and nothing is cancelled, so the equality holds for every extended-real
  input and the finiteness of the inputs is not used. The idealization rewrote no operation, so it preserves the
  kernel trivially. Each program's run terminates without fault and leaves its arguments unchanged: for the two
  kernel programs that is the frame of the grid's run, for the reference its straight-line run.
-/
import proofs.«126177_j65678639890840_2_alg».proof.Defs
import proofs.«126177_j65678639890840_2_alg».proof.Proof.Gen.Kernel
import proofs.«126177_j65678639890840_2_alg».proof.Proof.Gen.Kernel.Frame
import proofs.«126177_j65678639890840_2_alg».proof.Proof.Gen.KernelIdeal
import proofs.«126177_j65678639890840_2_alg».proof.Proof.Gen.KernelIdeal.Frame
import proofs.«126177_j65678639890840_2_alg».proof.Proof.Gen.ReferenceIdeal
import proofs.«126177_j65678639890840_2_alg».proof.Proof.Gen.ReferenceIdeal.Run
import proofs.«126177_j65678639890840_2_alg».proof.Proof.Gen.ReferenceIdeal.Read
import proofs.«126177_j65678639890840_2_alg».proof.Proof.Gen.Pre_finite_inputs
import proofs.«126177_j65678639890840_2_alg».proof.Proof.KernelLoss
import proofs.«126177_j65678639890840_2_alg».proof.Proof.RefValue
import Idealize.ShloMosaic.Adequacy
import Idealize.ShloMosaic.Init

noncomputable section

namespace Cert.Proof

open Idealize.ShloMosaic Idealize.SL.Sem

/-- The kernel as printed runs, and its arguments end unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: it runs, and its arguments end unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the loss of those arguments as their result. -/
theorem algebraic : Cert.algebraic_KernelIdeal_ReferenceIdeal := by
  intro m ρ m' ρ' _ hagree
  refine ⟨fun c => Cert.KernelIdeal.Accum.result m c, Cert.KernelIdeal.Accum.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Lsep.RefValue.result_eq_loss, (hagree c).1, (hagree c).2]
  exact (Cert.KernelIdeal.LossValue.result_eq_loss m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
